-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x256 .f32) (main_arg1 : IVec S800000 32) (main_arg2 : IVec S800000 32) (main_arg3 : FVec F S256x128 .f32) (main_arg4 : FVec F S128 .f32) (main_arg5 : FVec F S128x64 .f32) (main_arg6 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S50000x256 : Shape := ⟨2, ![50000, 256]⟩
abbrev S800000 : Shape := ⟨1, ![800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x128 : Shape := ⟨2, ![50000, 128]⟩
abbrev S2000x256 : Shape := ⟨2, ![2000, 256]⟩
abbrev S2000x1 : Shape := ⟨2, ![2000, 1]⟩
abbrev S2000x128 : Shape := ⟨2, ![2000, 128]⟩
abbrev S800000x128 : Shape := ⟨2, ![800000, 128]⟩
abbrev S1x128 : Shape := ⟨2, ![1, 128]⟩
abbrev S50000x64 : Shape := ⟨2, ![50000, 64]⟩
abbrev S2000x64 : Shape := ⟨2, ![2000, 64]⟩
abbrev S800000x64 : Shape := ⟨2, ![800000, 64]⟩
abbrev S1x64 : Shape := ⟨2, ![1, 64]⟩

abbrev nBuf : Space → Nat
  | .hbm => 65
  | .vmem => 28
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x1, .f32⟩
  | .hbm, ⟨33, _⟩ => ⟨S50000x128, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .f32⟩
  | .hbm, ⟨43, _⟩ => ⟨S_, .f32⟩
  | .hbm, ⟨44, _⟩ => ⟨S50000x128, .f32⟩
  | .hbm, ⟨45, _⟩ => ⟨S800000x1, .i32⟩
  | .hbm, ⟨46, _⟩ => ⟨S50000x128, .f32⟩
  | .hbm, ⟨47, _⟩ => ⟨S1x128, .f32⟩
  | .hbm, ⟨48, _⟩ => ⟨S50000x128, .f32⟩
  | .hbm, ⟨49, _⟩ => ⟨S50000x64, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x64, .f32⟩
  | .hbm, ⟨59, _⟩ => ⟨S_, .f32⟩
  | .hbm, ⟨60, _⟩ => ⟨S50000x64, .f32⟩
  | .hbm, ⟨61, _⟩ => ⟨S800000x1, .i32⟩
  | .hbm, ⟨62, _⟩ => ⟨S50000x64, .f32⟩
  | .hbm, ⟨63, _⟩ => ⟨S1x64, .f32⟩
  | .hbm, ⟨64, _⟩ => ⟨S50000x64, .f32⟩
  | .local _ .vmem, ⟨0, _⟩ => ⟨S2000x256, .f32⟩
  | .local _ .vmem, ⟨1, _⟩ => ⟨S2000x256, .f32⟩
  | .local _ .vmem, ⟨2, _⟩ => ⟨S2000x1, .f32⟩
  | .local _ .vmem, ⟨3, _⟩ => ⟨S2000x1, .f32⟩
  | .local _ .vmem, ⟨4, _⟩ => ⟨S256x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x1, .f32⟩
  | .local _ .vmem, ⟨17, _⟩ => ⟨S2000x1, .f32⟩
  | .local _ .vmem, ⟨18, _⟩ => ⟨S128x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x1, .f32⟩
  | .local _ .vmem, ⟨24, _⟩ => ⟨S2000x1, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_call1_v0 : Ref sig .tc := ⟨.hbm, 25, rfl⟩
abbrev main_call1_v1 : Ref sig .tc := ⟨.hbm, 26, rfl⟩
abbrev main_v10 : Ref sig .tc := ⟨.hbm, 27, rfl⟩
abbrev main_cst_5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_6 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_7 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_8 : Ref sig .tc := ⟨.hbm, 50, rfl⟩
abbrev main_v29 : Ref sig .tc := ⟨.hbm, 51, rfl⟩
abbrev main_v30 : Ref sig .tc := ⟨.hbm, 52, rfl⟩
abbrev main_c_9 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_10 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S2000x256_S2000x256_0_0 : ∀ a, (![0, 0] : Fin 2 → Nat) a + S2000x256.size a ≤ S2000x256.size a
  h_S2000x256 : 0 < S2000x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S2000x1_S2000x128 : S2000x1.Broadcasts S2000x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S2000x1_S2000x64 : S2000x1.Broadcasts S2000x64
  broadcasts_S1x64_S2000x64 : S1x64.Broadcasts S2000x64
  scatter_S50000_S800000x1_S800000_n_0_0_1_wf : ScatterDims.WF S50000 S800000x1 S800000 [] [0] [0] 1
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x64_S2000x64_1_0_0_1_n_n_wf : DotDims.WF S2000x128 S128x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S50000x64.size a
  hwx2_3 : ∀ i : grid2.Coords, EltTy.bits .f32 = 32 ∨ (Rect.block (s := S50000x64) S2000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S50000x64.size a
  hwx3_3 : ∀ i : grid3.Coords, EltTy.bits .f32 = 32 ∨ (Rect.block (s := S50000x64) S2000x64.size (cc3_transform_3 i) (hinb3_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v27) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v38) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v39) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v40) S2000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x256 : Shape := ⟨2, ![50000, 256]⟩
abbrev S800000 : Shape := ⟨1, ![800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x128 : Shape := ⟨2, ![50000, 128]⟩
abbrev S800000x128 : Shape := ⟨2, ![800000, 128]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 80
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x256, .f32⟩
  | .hbm, ⟨33, _⟩ => ⟨S50000x256, .f32⟩
  | .hbm, ⟨34, _⟩ => ⟨S50000x128, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x128, .f32⟩
  | .hbm, ⟨44, _⟩ => ⟨S_, .f32⟩
  | .hbm, ⟨45, _⟩ => ⟨S50000x128, .f32⟩
  | .hbm, ⟨46, _⟩ => ⟨S800000x1, .i32⟩
  | .hbm, ⟨47, _⟩ => ⟨S50000x128, .f32⟩
  | .hbm, ⟨48, _⟩ => ⟨S50000x1, .f32⟩
  | .hbm, ⟨49, _⟩ => ⟨S50000x128, .f32⟩
  | .hbm, ⟨50, _⟩ => ⟨S50000x128, .f32⟩
  | .hbm, ⟨51, _⟩ => ⟨S1x128, .f32⟩
  | .hbm, ⟨52, _⟩ => ⟨S50000x128, .f32⟩
  | .hbm, ⟨53, _⟩ => ⟨S50000x128, .f32⟩
  | .hbm, ⟨54, _⟩ => ⟨S_, .f32⟩
  | .hbm, ⟨55, _⟩ => ⟨S50000x128, .f32⟩
  | .hbm, ⟨56, _⟩ => ⟨S50000x128, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S50000x64, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x64, .f32⟩
  | .hbm, ⟨70, _⟩ => ⟨S_, .f32⟩
  | .hbm, ⟨71, _⟩ => ⟨S50000x64, .f32⟩
  | .hbm, ⟨72, _⟩ => ⟨S800000x1, .i32⟩
  | .hbm, ⟨73, _⟩ => ⟨S50000x64, .f32⟩
  | .hbm, ⟨74, _⟩ => ⟨S50000x1, .f32⟩
  | .hbm, ⟨75, _⟩ => ⟨S50000x64, .f32⟩
  | .hbm, ⟨76, _⟩ => ⟨S50000x64, .f32⟩
  | .hbm, ⟨77, _⟩ => ⟨S1x64, .f32⟩
  | .hbm, ⟨78, _⟩ => ⟨S50000x64, .f32⟩
  | .hbm, ⟨79, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_call1_v0 : Ref sig .tc := ⟨.hbm, 25, rfl⟩
abbrev main_call1_v1 : Ref sig .tc := ⟨.hbm, 26, rfl⟩
abbrev main_v10 : Ref sig .tc := ⟨.hbm, 27, rfl⟩
abbrev main_cst_5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_7 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call2_cst : Ref sig .tc := ⟨.hbm, 54, rfl⟩
abbrev main_call2_v0 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_8 : Ref sig .tc := ⟨.hbm, 61, rfl⟩
abbrev main_v38 : Ref sig .tc := ⟨.hbm, 62, rfl⟩
abbrev main_v39 : Ref sig .tc := ⟨.hbm, 63, rfl⟩
abbrev main_c_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_10 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KernelRun.lean ====
/-
  The idealized kernel's run, read at every buffer.

  The program is eleven segments: five stretches of host operations that compute the degree factors, the first scaled
  product, a stretch that gathers and sums along the edges, the first output stage, the second scaled product, another
  gather-and-sum stretch, and the second output stage. The contents of the device's buffers at each boundary are a fold
  from the launch memory: a host stretch rewrites the buffers its operations write, a region leaves its arrays at what its
  write-backs give and everything else as it was. Every weakly fair execution terminates, and every buffer that is not
  scoped ends at the last boundary's contents; in particular the result array does, and the seven arguments are as
  launched.
-/
import proofs.«172578_j13580686590542_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with each unscoped buffer of each core at the last boundary's contents. -/
theorem run_buffers : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

/-- The run with the result array named: it ends at the last boundary's contents of its buffer, the arguments as launched. -/
theorem run : θ_run defs (onTc (τ := τ) (main (F := F))) ⟨m, fun _ => 0, ρ⟩ (fun r => ∀ c : Dev nD,
      r.2.mem ((c.tc : Thread nD τ).loc main_v40) = W11 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨h c _ (mem_uc main_v40 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c)⟩)
    (run_buffers m ρ)

end Cert.KernelIdeal.Whole

end
-- ==== Proof.Layers.lean ====
/-
  The dense stages of a two-layer graph convolution, entry by entry over the extended reals.

  Each layer first scales every row of its input by that row's source-side degree factor and multiplies by the weight
  matrix: entry (a, b) of the product is the sum over k of (x (a, k) · s (a)) · W (k, b). After the edge-wise gathering and
  summing (which both programs leave to the same host operations) the aggregated entry (a, b) is scaled by the
  destination-side factor of row a and shifted by the bias of column b; the first layer then takes the maximum with zero.
  The row factors arrive as one-column tables and the biases as one-row tables.
-/
import Idealize.ShloMosaic.Lib.ValueIdx
import Idealize.ShloMosaic.PureOps.Ideal.Laws

noncomputable section

open scoped BigOperators

namespace Cert.Gcn

open Idealize.ShloMosaic Idealize.ShloMosaic.ValueIdx

/-- Rows of `x` scaled by the column `s`, then multiplied by `W`: entry (a, b) is `∑ k, (x (a, k) · s (a, 0)) · W (k, b)`. -/
def scaledProduct {M K N : Nat} (x : FVec Ideal ⟨2, ![M, K]⟩ .f32) (s : FVec Ideal ⟨2, ![M, 1]⟩ .f32)
    (W : FVec Ideal ⟨2, ![K, N]⟩ .f32) : FVec Ideal ⟨2, ![M, N]⟩ .f32 :=
  fun i => ∑ k : Fin K, (x (ix2 (n0 := M) (i 0) k) * s (ix2 (n0 := M) (i 0) (0 : Fin 1))) * W (ix2 k (n1 := N) (i 1))

/-- Entry (a, b) of `g` scaled by the row factor `d (a, 0)` and shifted by the bias `β (0, b)`. -/
def scaleShift {M N : Nat} (g : FVec Ideal ⟨2, ![M, N]⟩ .f32) (d : FVec Ideal ⟨2, ![M, 1]⟩ .f32)
    (β : FVec Ideal ⟨2, ![1, N]⟩ .f32) : FVec Ideal ⟨2, ![M, N]⟩ .f32 :=
  fun i => g i * d (ix2 (n0 := M) (i 0) (0 : Fin 1)) + β (ix2 (0 : Fin 1) (n1 := N) (i 1))

/-- The same, followed by the maximum with zero. -/
def scaleShiftPos {M N : Nat} (g : FVec Ideal ⟨2, ![M, N]⟩ .f32) (d : FVec Ideal ⟨2, ![M, 1]⟩ .f32)
    (β : FVec Ideal ⟨2, ![1, N]⟩ .f32) : FVec Ideal ⟨2, ![M, N]⟩ .f32 :=
  fun i => max (scaleShift g d β i) (Ideal.ofBits .f32 0x00000000#32)

theorem scaledProduct_apply {M K N : Nat} (x : FVec Ideal ⟨2, ![M, K]⟩ .f32) (s : FVec Ideal ⟨2, ![M, 1]⟩ .f32)
    (W : FVec Ideal ⟨2, ![K, N]⟩ .f32) (a : Fin M) (b : Fin N) :
    scaledProduct x s W (ix2 a b) = ∑ k : Fin K, (x (ix2 a k) * s (ix2 a (0 : Fin 1))) * W (ix2 k b) := rfl

theorem scaleShift_apply {M N : Nat} (g : FVec Ideal ⟨2, ![M, N]⟩ .f32) (d : FVec Ideal ⟨2, ![M, 1]⟩ .f32)
    (β : FVec Ideal ⟨2, ![1, N]⟩ .f32) (a : Fin M) (b : Fin N) :
    scaleShift g d β (ix2 a b) = g (ix2 a b) * d (ix2 a (0 : Fin 1)) + β (ix2 (0 : Fin 1) b) := rfl

theorem scaleShiftPos_apply {M N : Nat} (g : FVec Ideal ⟨2, ![M, N]⟩ .f32) (d : FVec Ideal ⟨2, ![M, 1]⟩ .f32)
    (β : FVec Ideal ⟨2, ![1, N]⟩ .f32) (a : Fin M) (b : Fin N) :
    scaleShiftPos g d β (ix2 a b)
      = max (g (ix2 a b) * d (ix2 a (0 : Fin 1)) + β (ix2 (0 : Fin 1) b)) (Ideal.ofBits .f32 0x00000000#32) := rfl

end Cert.Gcn

end
-- ==== Proof.LibMatmul.lean ====
/-
  A plain M × K by K × N matrix product into a zero accumulator, read at one entry: at the exact (extended real) values the
  entry (a, b) is the sum over the contracted coordinate c of A (a, c) · B (c, b) — no rounding and no chunk order left in it.
-/
import Idealize.ShloMosaic.Lib.ValueIdx
import Idealize.ShloMosaic.PureOps.Ideal.Laws

noncomputable section

open scoped BigOperators

namespace Cert.LibMatmul

open Idealize.ShloMosaic Idealize.ShloMosaic.ValueIdx

/-- The product of an `M × K` by a `K × N` matrix accumulated into the zero splat, at entry `(a, b)`, is
    `∑ c, A (a, c) · B (c, b)` over the extended reals. -/
theorem matmul_plain_zero_apply {M K N : Nat} {φ₁ φ₂ : FTy} (prec : Option ContractPrecision)
    (A : FVec Ideal ⟨2, ![M, K]⟩ φ₁) (B : FVec Ideal ⟨2, ![K, N]⟩ φ₂) (a : Fin M) (b : Fin N) :
    FloatOps.matmul (DotDims.plain M K N) prec A B (constant (F := Ideal) ⟨2, ![M, N]⟩ .f32 0x00000000#32) (ix2 a b)
      = ∑ c : Fin K, A (ix2 a c) * B (ix2 c b) := by
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.LibMatmul

end
-- ==== Proof.LibTransposeRepeat.lean ====
/-
  Three layout facts read at an entry, at the exact values: a transposed N x K matrix at (c, n) is the matrix at (n, c);
  an M x 1 column repeated across N columns (a broadcast to M x N) reads the column at its row; a 1 x N row repeated down M
  rows reads the row at its column. Together with a matrix product read as a sum they turn "x times W transposed plus a
  bias row" into sum over c of x(a, c) * W(b, c) + bias(b).
-/
import Idealize.ShloMosaic.Lib.ValueIdx
import Idealize.ShloMosaic.Lib.Pipeline.Value
import Idealize.ShloMosaic.PureOps.Ideal

noncomputable section

namespace Cert.LibTransposeRepeat

open Idealize.ShloMosaic Idealize.ShloMosaic.ValueIdx

/-- A transposed N x K matrix at (c, n) is the matrix at (n, c). -/
theorem transposed_apply {N K : Nat} {φ : FTy} (W : FVec Ideal ⟨2, ![N, K]⟩ φ)
    (h : (⟨2, ![N, K]⟩ : Shape).Transposes [1, 0] ⟨2, ![K, N]⟩) (c : Fin K) (n : Fin N) :
    transpose ⟨2, ![K, N]⟩ [1, 0] W h (ix2 c n) = W (ix2 n c) :=
  transpose_apply [1, 0] W h (ix2 c n) (ix2 n c) (fun b' => by
    match b' with
    | ⟨0, _⟩ => rfl
    | ⟨1, _⟩ => rfl)

/-- An M x 1 column repeated across N columns reads the column at its row. -/
theorem colRepeat_apply {M N : Nat} {φ : FTy} (v : FVec Ideal ⟨2, ![M, 1]⟩ φ)
    (h : (⟨2, ![M, 1]⟩ : Shape).Broadcasts ⟨2, ![M, N]⟩) (a : Fin M) (b : Fin N) :
    broadcastTo ⟨2, ![M, N]⟩ v h (ix2 a b) = v (ix2 a (0 : Fin 1)) :=
  broadcastTo_apply v h (ix2 a b) (ix2 a (0 : Fin 1)) (fun c => by
    match c with
    | ⟨0, _⟩ =>
      show a.val = if M = 1 then 0 else a.val
      split
      · have := a.isLt; omega
      · rfl
    | ⟨1, _⟩ => show (0 : Nat) = if (1 : Nat) = 1 then 0 else _; rw [if_pos rfl])

/-- A 1 x N row repeated down M rows reads the row at its column. -/
theorem rowRepeat_apply {M N : Nat} {φ : FTy} (v : FVec Ideal ⟨2, ![1, N]⟩ φ)
    (h : (⟨2, ![1, N]⟩ : Shape).Broadcasts ⟨2, ![M, N]⟩) (a : Fin M) (b : Fin N) :
    broadcastTo ⟨2, ![M, N]⟩ v h (ix2 a b) = v (ix2 (0 : Fin 1) b) :=
  broadcastTo_apply v h (ix2 a b) (ix2 (0 : Fin 1) b) (fun c => by
    match c with
    | ⟨0, _⟩ => show (0 : Nat) = if (1 : Nat) = 1 then 0 else _; rw [if_pos rfl]
    | ⟨1, _⟩ =>
      show b.val = if N = 1 then 0 else b.val
      split
      · have := b.isLt; omega
      · rfl)

end Cert.LibTransposeRepeat

end
-- ==== Proof.FirstProduct.lean ====
/-
  The first layer's scaled product, block by block and then as one array.

  The grid has 25 points; point t reads rows 2000·t … 2000·t + 1999 of the features and of the one-column table of
  source-side factors, the whole weight matrix, and writes the same rows of the product. Inside a block, entry (p, q) of
  what the body stores is ∑ k, (x (p, k) · s (p, 0)) · W (k, q): the matrix unit's product into a zero accumulator is that
  sum, the change of float format before it is the identity on exact values, and the column of factors repeated across
  the 256 columns reads the factor of row p. The 25 blocks tile the 50000 rows, so the array the region leaves is the
  scaled product of the arrays it found.
-/
import proofs.«172578_j13580686590542_1_alg».proof.Proof.Gen.KernelIdeal.Frame
import proofs.«172578_j13580686590542_1_alg».proof.Proof.Layers
import proofs.«172578_j13580686590542_1_alg».proof.Proof.LibMatmul
import proofs.«172578_j13580686590542_1_alg».proof.Proof.LibTransposeRepeat
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.FirstProduct

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- What the body stores, at entry (p, q) of the block: the sum over k of (x (p, k) · s (p, 0)) · W (k, q). -/
theorem stored_apply (x0 : Vec Ideal S2000x256 .f32) (x1 : Vec Ideal S2000x1 .f32) (x2 : Vec Ideal S256x128 .f32)
    (p : Fin 2000) (q : Fin 128) :
    k0_pay1 (F := Ideal) x0 x1 x2 (ix2 p q) = ∑ k : Fin 256, (x0 (ix2 p k) * x1 (ix2 p (0 : Fin 1))) * x2 (ix2 k q) := by
  unfold k0_pay1
  refine (Cert.LibMatmul.matmul_plain_zero_apply (M := 2000) (K := 256) (N := 128) none _ _ p q).trans ?_
  refine Finset.sum_congr rfl fun k _ => ?_
  show (x0 (ix2 p k) * broadcastTo S2000x256 (shapeCast S2000x1 x1 shapeCasts_S2000x1_S2000x1) broadcasts_S2000x1_S2000x256 (ix2 p k)) * x2 (ix2 k q) = _
  rw [Cert.LibTransposeRepeat.colRepeat_apply (φ := .f32), shapeCast_self]

/-- Where each window's block sits at point t: rows from 2000·t for the features, the factors and the product; the whole
    weight matrix. -/
theorem block_origin : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry (p, k) of the features' block at point t is entry (2000·t + p, k) of the features. -/
theorem features_block (c : Dev nD) (t : Fin cfg0.N) (p : Fin 2000) (k : Fin 256) (i : S50000x256.Idx)
    (h0 : (i 0).val = t.val * 2000 + p.val) (h1 : (i 1).val = k.val) :
    (iblk0 V c 0 t : Vec Ideal S2000x256 .f32) (ix2 p k) = (V c main_arg0 : S50000x256.Idx → Elt Ideal .f32) i := by
  obtain ⟨e0, e1, -⟩ := block_origin t
  unfold iblk0
  rw [View.read_apply]
  show V c main_arg0 _ = V c main_arg0 _
  refine congrArg _ ?_
  funext a
  apply Fin.ext
  match a with
  | ⟨0, _⟩ => show win0_0.index t 0 * 2000 + 1 * p.val = (i 0).val; rw [e0, h0]; omega
  | ⟨1, _⟩ => show win0_0.index t 1 * 256 + 1 * k.val = (i 1).val; rw [e1, h1]; omega

/-- Entry (p, 0) of the factors' block at point t is entry (2000·t + p, 0) of the table of factors. -/
theorem factors_block (c : Dev nD) (t : Fin cfg0.N) (p : Fin 2000) (i : S50000x1.Idx)
    (h0 : (i 0).val = t.val * 2000 + p.val) :
    (iblk0 V c 1 t : Vec Ideal S2000x1 .f32) (ix2 p (0 : Fin 1)) = (V c main_v13 : S50000x1.Idx → Elt Ideal .f32) i := by
  obtain ⟨-, -, e2, e3, -⟩ := block_origin t
  unfold iblk0
  rw [View.read_apply]
  show V c main_v13 _ = V c main_v13 _
  refine congrArg _ ?_
  funext a
  apply Fin.ext
  match a with
  | ⟨0, _⟩ => show win0_1.index t 0 * 2000 + 1 * p.val = (i 0).val; rw [e2, h0]; omega
  | ⟨1, _⟩ => show win0_1.index t 1 * 1 + 1 * (0 : Fin 1).val = (i 1).val
              have h1 : (i 1).val = 0 := Nat.lt_one_iff.mp (i 1).isLt
              rw [e3, h1]; rfl

/-- The weights' block at every point is the whole weight matrix. -/
theorem weights_block (c : Dev nD) (t : Fin cfg0.N) (k : Fin 256) (q : Fin 128) :
    (iblk0 V c 2 t : Vec Ideal S256x128 .f32) (ix2 k q) = (V c main_arg3 : S256x128.Idx → Elt Ideal .f32) (ix2 k q) := by
  obtain ⟨-, -, -, -, e4, e5, -⟩ := block_origin t
  unfold iblk0
  rw [View.read_apply]
  show V c main_arg3 _ = V c main_arg3 _
  refine congrArg _ ?_
  funext a
  apply Fin.ext
  match a with
  | ⟨0, _⟩ => show win0_2.index t 0 * 256 + 1 * k.val = k.val; rw [e4]; omega
  | ⟨1, _⟩ => show win0_2.index t 1 * 128 + 1 * q.val = q.val; rw [e5]; omega

/-- What point t writes back is block t of the scaled product of the arrays the region found. -/
theorem flushed_eq (c : Dev nD) (t : Fin cfg0.N) :
    (dat0 V c).flushed 3 t = ((cfg0.win 3).blk t).view.read (Elt Ideal)
      (scaledProduct (M := 50000) (K := 256) (N := 128) (V c main_arg0) (V c main_v13) (V c main_arg3)) := by
  show (cfg0.win 3).cut (grid0.coords t) ((dat0 V c).after 3 t) = _
  rw [after0_3]
  unfold out0_3
  rw [View.canon_unit_zero hz]
  simp only [View.ld_unit_zero (S := S2000x256) hz, View.ld_unit_zero (S := S2000x1) hz, View.ld_unit_zero (S := S256x128) hz]
  funext j
  obtain ⟨p, q, rfl⟩ : ∃ (p : Fin 2000) (q : Fin 128), j = ix2 p q := ⟨j 0, j 1, eq_ix2 j⟩
  obtain ⟨-, -, -, -, -, -, e6, e7⟩ := block_origin t
  have hN : t.val < 25 := lt_of_lt_of_eq t.isLt N_0
  show k0_pay1 (iblk0 V c 0 t) (iblk0 V c 1 t) (iblk0 V c 2 t) (ix2 p q)
    = scaledProduct (M := 50000) (K := 256) (N := 128) (V c main_arg0) (V c main_v13) (V c main_arg3) (((cfg0.win 3).blk t).view.emb (ix2 p q))
  have hr : ((cfg0.win 3).blk t).view.emb (ix2 p q) = ix2 (⟨t.val * 2000 + p.val, by omega⟩ : Fin 50000) q := by
    funext a
    apply Fin.ext
    match a with
    | ⟨0, _⟩ => show win0_3.index t 0 * 2000 + 1 * p.val = t.val * 2000 + p.val; rw [e6]; omega
    | ⟨1, _⟩ => show win0_3.index t 1 * 128 + 1 * q.val = q.val; rw [e7]; omega
  rw [hr, stored_apply, scaledProduct_apply]
  refine Finset.sum_congr rfl fun k _ => ?_
  rw [features_block V c t p k (ix2 (⟨t.val * 2000 + p.val, by omega⟩ : Fin 50000) k) rfl rfl,
    factors_block V c t p (ix2 (⟨t.val * 2000 + p.val, by omega⟩ : Fin 50000) (0 : Fin 1)) rfl,
    weights_block V c t k q]

/-- An entry of the product array is in point t's block iff its row is among the block's 2000 rows. -/
theorem mem_block (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v15).slice (win0_3.rect t)).set ↔ _
  rw [View.set_slice_whole, Rect.mem_set_unit]
  exact Iff.rfl

/-- Every entry of the product array lies in the block of the point its row divided by 2000 names. -/
theorem covered (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, -, -, e6, e7⟩ := block_origin t
  refine ⟨t, flush0_3 t, ?_⟩
  rw [mem_block]
  intro a
  match a with
  | ⟨0, _⟩ => show win0_3.index t 0 * 2000 ≤ (i 0).val ∧ (i 0).val < win0_3.index t 0 * 2000 + 2000; rw [e6, ht]; omega
  | ⟨1, _⟩ => show win0_3.index t 1 * 128 ≤ (i 1).val ∧ (i 1).val < win0_3.index t 1 * 128 + 128; rw [e7]; omega

/-- The array the region leaves is the scaled product of the arrays it found. -/
theorem final (c : Dev nD) :
    (dat0 V c).arrAt 3 cfg0.N = scaledProduct (M := 50000) (K := 256) (N := 128) (V c main_arg0) (V c main_v13) (V c main_arg3) :=
  (dat0 V c).arrAt_eq_of_cover 3 _ (fun t _ => flushed_eq V c t) covered

end Cert.KernelIdeal.FirstProduct

end
-- ==== Proof.FirstOutput.lean ====
/-
  The first layer's output stage, block by block and then as one array.

  After the edge-wise sums, point t of the 25 reads rows 2000·t … 2000·t + 1999 of the aggregated features and of the
  one-column table of destination-side factors, and the whole one-row table of biases; it stores, at entry (p, q) of
  the same rows, the larger of g (p, q) · d (p, 0) + β (0, q) and zero: the column of factors repeated across the 128
  columns reads the factor of row p, the row of biases repeated down the 2000 rows reads the bias of column q. The
  blocks tile the 50000 rows.
-/
import proofs.«172578_j13580686590542_1_alg».proof.Proof.Gen.KernelIdeal.Frame
import proofs.«172578_j13580686590542_1_alg».proof.Proof.Layers
import proofs.«172578_j13580686590542_1_alg».proof.Proof.LibTransposeRepeat
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.FirstOutput

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- What the body stores, at entry (p, q) of the block: g (p, q) · d (p, 0) + β (0, q), or zero if that is negative. -/
theorem stored_apply (x0 : Vec Ideal S2000x128 .f32) (x1 : Vec Ideal S2000x1 .f32) (x2 : Vec Ideal S1x128 .f32)
    (p : Fin 2000) (q : Fin 128) :
    k1_pay1 (F := Ideal) x0 x1 x2 (ix2 p q) = max (x0 (ix2 p q) * x1 (ix2 p (0 : Fin 1)) + x2 (ix2 (0 : Fin 1) q)) (Ideal.ofBits .f32 0x00000000#32) := by
  unfold k1_pay1
  show max (shapeCast S2000x128 x0 shapeCasts_S2000x128_S2000x128 (ix2 p q) * broadcastTo S2000x128 (shapeCast S2000x1 x1 shapeCasts_S2000x1_S2000x1) broadcasts_S2000x1_S2000x128 (ix2 p q) + broadcastTo S2000x128 (shapeCast S1x128 x2 shapeCasts_S1x128_S1x128) broadcasts_S1x128_S2000x128 (ix2 p q)) (Ideal.ofBits .f32 0x00000000#32) = _
  rw [Cert.LibTransposeRepeat.colRepeat_apply (φ := .f32), Cert.LibTransposeRepeat.rowRepeat_apply (φ := .f32),
    shapeCast_self, shapeCast_self, shapeCast_self]

/-- Where each window's block sits at point t: rows from 2000·t for the aggregated features, the factors and the result;
    the whole one-row table of biases. -/
theorem block_origin : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry (p, q) of the aggregated features' block at point t is entry (2000·t + p, q) of the aggregated features. -/
theorem aggregate_block (c : Dev nD) (t : Fin cfg1.N) (p : Fin 2000) (q : Fin 128) (i : S50000x128.Idx)
    (h0 : (i 0).val = t.val * 2000 + p.val) (h1 : (i 1).val = q.val) :
    (iblk1 V c 0 t : Vec Ideal S2000x128 .f32) (ix2 p q) = (V c main_v25 : S50000x128.Idx → Elt Ideal .f32) i := by
  obtain ⟨e0, e1, -⟩ := block_origin t
  unfold iblk1
  rw [View.read_apply]
  show V c main_v25 _ = V c main_v25 _
  refine congrArg _ ?_
  funext a
  apply Fin.ext
  match a with
  | ⟨0, _⟩ => show win1_0.index t 0 * 2000 + 1 * p.val = (i 0).val; rw [e0, h0]; omega
  | ⟨1, _⟩ => show win1_0.index t 1 * 128 + 1 * q.val = (i 1).val; rw [e1, h1]; omega

/-- Entry (p, 0) of the factors' block at point t is entry (2000·t + p, 0) of the table of factors. -/
theorem factors_block (c : Dev nD) (t : Fin cfg1.N) (p : Fin 2000) (i : S50000x1.Idx)
    (h0 : (i 0).val = t.val * 2000 + p.val) :
    (iblk1 V c 1 t : Vec Ideal S2000x1 .f32) (ix2 p (0 : Fin 1)) = (V c main_v14 : S50000x1.Idx → Elt Ideal .f32) i := by
  obtain ⟨-, -, e2, e3, -⟩ := block_origin t
  unfold iblk1
  rw [View.read_apply]
  show V c main_v14 _ = V c main_v14 _
  refine congrArg _ ?_
  funext a
  apply Fin.ext
  match a with
  | ⟨0, _⟩ => show win1_1.index t 0 * 2000 + 1 * p.val = (i 0).val; rw [e2, h0]; omega
  | ⟨1, _⟩ => show win1_1.index t 1 * 1 + 1 * (0 : Fin 1).val = (i 1).val
              have h1 : (i 1).val = 0 := Nat.lt_one_iff.mp (i 1).isLt
              rw [e3, h1]; rfl

/-- The biases' block at every point is the whole one-row table. -/
theorem bias_block (c : Dev nD) (t : Fin cfg1.N) (q : Fin 128) :
    (iblk1 V c 2 t : Vec Ideal S1x128 .f32) (ix2 (0 : Fin 1) q) = (V c main_v26 : S1x128.Idx → Elt Ideal .f32) (ix2 (0 : Fin 1) q) := by
  obtain ⟨-, -, -, -, e4, e5, -⟩ := block_origin t
  unfold iblk1
  rw [View.read_apply]
  show V c main_v26 _ = V c main_v26 _
  refine congrArg _ ?_
  funext a
  apply Fin.ext
  match a with
  | ⟨0, _⟩ => show win1_2.index t 0 * 1 + 1 * (0 : Fin 1).val = (0 : Fin 1).val; rw [e4]; rfl
  | ⟨1, _⟩ => show win1_2.index t 1 * 128 + 1 * q.val = q.val; rw [e5]; omega

/-- What point t writes back is block t of the scaled and shifted array of the arrays the region found. -/
theorem flushed_eq (c : Dev nD) (t : Fin cfg1.N) :
    (dat1 V c).flushed 3 t = ((cfg1.win 3).blk t).view.read (Elt Ideal)
      (scaleShiftPos (M := 50000) (N := 128) (V c main_v25) (V c main_v14) (V c main_v26)) := by
  show (cfg1.win 3).cut (grid1.coords t) ((dat1 V c).after 3 t) = _
  rw [after1_3]
  unfold out1_3
  rw [View.canon_unit_zero hz]
  simp only [View.ld_unit_zero (S := S2000x128) hz, View.ld_unit_zero (S := S2000x1) hz, View.ld_unit_zero (S := S1x128) hz]
  funext j
  obtain ⟨p, q, rfl⟩ : ∃ (p : Fin 2000) (q : Fin 128), j = ix2 p q := ⟨j 0, j 1, eq_ix2 j⟩
  obtain ⟨-, -, -, -, -, -, e6, e7⟩ := block_origin t
  have hN : t.val < 25 := lt_of_lt_of_eq t.isLt N_1
  show k1_pay1 (iblk1 V c 0 t) (iblk1 V c 1 t) (iblk1 V c 2 t) (ix2 p q)
    = scaleShiftPos (M := 50000) (N := 128) (V c main_v25) (V c main_v14) (V c main_v26) (((cfg1.win 3).blk t).view.emb (ix2 p q))
  have hr : ((cfg1.win 3).blk t).view.emb (ix2 p q) = ix2 (⟨t.val * 2000 + p.val, by omega⟩ : Fin 50000) q := by
    funext a
    apply Fin.ext
    match a with
    | ⟨0, _⟩ => show win1_3.index t 0 * 2000 + 1 * p.val = t.val * 2000 + p.val; rw [e6]; omega
    | ⟨1, _⟩ => show win1_3.index t 1 * 128 + 1 * q.val = q.val; rw [e7]; omega
  rw [hr, stored_apply, scaleShiftPos_apply,
    aggregate_block V c t p q (ix2 (⟨t.val * 2000 + p.val, by omega⟩ : Fin 50000) q) rfl rfl,
    factors_block V c t p (ix2 (⟨t.val * 2000 + p.val, by omega⟩ : Fin 50000) (0 : Fin 1)) rfl,
    bias_block V c t q]

/-- An entry of the result array is in point t's block iff its row is among the block's 2000 rows. -/
theorem mem_block (t : Fin cfg1.N) (i : S50000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v27).slice (win1_3.rect t)).set ↔ _
  rw [View.set_slice_whole, Rect.mem_set_unit]
  exact Iff.rfl

/-- Every entry of the result array lies in the block of the point its row divided by 2000 names. -/
theorem covered (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨-, -, -, -, -, -, e6, e7⟩ := block_origin t
  refine ⟨t, flush1_3 t, ?_⟩
  rw [mem_block]
  intro a
  match a with
  | ⟨0, _⟩ => show win1_3.index t 0 * 2000 ≤ (i 0).val ∧ (i 0).val < win1_3.index t 0 * 2000 + 2000; rw [e6, ht]; omega
  | ⟨1, _⟩ => show win1_3.index t 1 * 128 ≤ (i 1).val ∧ (i 1).val < win1_3.index t 1 * 128 + 128; rw [e7]; omega

/-- The array the region leaves is the scaled and shifted array of the arrays it found. -/
theorem final (c : Dev nD) :
    (dat1 V c).arrAt 3 cfg1.N = scaleShiftPos (M := 50000) (N := 128) (V c main_v25) (V c main_v14) (V c main_v26) :=
  (dat1 V c).arrAt_eq_of_cover 3 _ (fun t _ => flushed_eq V c t) covered

end Cert.KernelIdeal.FirstOutput

end
-- ==== Proof.SecondProduct.lean ====
/-
  The second layer's scaled product, block by block and then as one array.

  As in the first layer, with the hidden features (128 columns) in place of the input features and the second weight
  matrix (128 × 64): point t of the 25 reads rows 2000·t … 2000·t + 1999 of the hidden features and of the source-side
  factors and the whole weight matrix, and stores ∑ k, (h (p, k) · s (p, 0)) · W (k, q) at entry (p, q) of the same rows
  of the product. The blocks tile the 50000 rows.
-/
import proofs.«172578_j13580686590542_1_alg».proof.Proof.Gen.KernelIdeal.Frame
import proofs.«172578_j13580686590542_1_alg».proof.Proof.Layers
import proofs.«172578_j13580686590542_1_alg».proof.Proof.LibMatmul
import proofs.«172578_j13580686590542_1_alg».proof.Proof.LibTransposeRepeat
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.SecondProduct

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- What the body stores, at entry (p, q) of the block: the sum over k of (x (p, k) · s (p, 0)) · W (k, q). -/
theorem stored_apply (x0 : Vec Ideal S2000x128 .f32) (x1 : Vec Ideal S2000x1 .f32) (x2 : Vec Ideal S128x64 .f32)
    (p : Fin 2000) (q : Fin 64) :
    k2_pay1 (F := Ideal) x0 x1 x2 (ix2 p q) = ∑ k : Fin 128, (x0 (ix2 p k) * x1 (ix2 p (0 : Fin 1))) * x2 (ix2 k q) := by
  unfold k2_pay1
  refine (Cert.LibMatmul.matmul_plain_zero_apply (M := 2000) (K := 128) (N := 64) none _ _ p q).trans ?_
  refine Finset.sum_congr rfl fun k _ => ?_
  show (shapeCast S2000x128 x0 shapeCasts_S2000x128_S2000x128 (ix2 p k) * broadcastTo S2000x128 (shapeCast S2000x1 x1 shapeCasts_S2000x1_S2000x1) broadcasts_S2000x1_S2000x128 (ix2 p k)) * x2 (ix2 k q) = _
  rw [Cert.LibTransposeRepeat.colRepeat_apply (φ := .f32), shapeCast_self, shapeCast_self]

/-- Where each window's block sits at point t: rows from 2000·t for the hidden features, the factors and the product; the whole
    weight matrix. -/
theorem block_origin : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Entry (p, k) of the hidden features' block at point t is entry (2000·t + p, k) of the hidden features. -/
theorem features_block (c : Dev nD) (t : Fin cfg2.N) (p : Fin 2000) (k : Fin 128) (i : S50000x128.Idx)
    (h0 : (i 0).val = t.val * 2000 + p.val) (h1 : (i 1).val = k.val) :
    (iblk2 V c 0 t : Vec Ideal S2000x128 .f32) (ix2 p k) = (V c main_v27 : S50000x128.Idx → Elt Ideal .f32) i := by
  obtain ⟨e0, e1, -⟩ := block_origin t
  unfold iblk2
  rw [View.read_apply]
  show V c main_v27 _ = V c main_v27 _
  refine congrArg _ ?_
  funext a
  apply Fin.ext
  match a with
  | ⟨0, _⟩ => show win2_0.index t 0 * 2000 + 1 * p.val = (i 0).val; rw [e0, h0]; omega
  | ⟨1, _⟩ => show win2_0.index t 1 * 128 + 1 * k.val = (i 1).val; rw [e1, h1]; omega

/-- Entry (p, 0) of the factors' block at point t is entry (2000·t + p, 0) of the table of factors. -/
theorem factors_block (c : Dev nD) (t : Fin cfg2.N) (p : Fin 2000) (i : S50000x1.Idx)
    (h0 : (i 0).val = t.val * 2000 + p.val) :
    (iblk2 V c 1 t : Vec Ideal S2000x1 .f32) (ix2 p (0 : Fin 1)) = (V c main_v13 : S50000x1.Idx → Elt Ideal .f32) i := by
  obtain ⟨-, -, e2, e3, -⟩ := block_origin t
  unfold iblk2
  rw [View.read_apply]
  show V c main_v13 _ = V c main_v13 _
  refine congrArg _ ?_
  funext a
  apply Fin.ext
  match a with
  | ⟨0, _⟩ => show win2_1.index t 0 * 2000 + 1 * p.val = (i 0).val; rw [e2, h0]; omega
  | ⟨1, _⟩ => show win2_1.index t 1 * 1 + 1 * (0 : Fin 1).val = (i 1).val
              have h1 : (i 1).val = 0 := Nat.lt_one_iff.mp (i 1).isLt
              rw [e3, h1]; rfl

/-- The weights' block at every point is the whole weight matrix. -/
theorem weights_block (c : Dev nD) (t : Fin cfg2.N) (k : Fin 128) (q : Fin 64) :
    (iblk2 V c 2 t : Vec Ideal S128x64 .f32) (ix2 k q) = (V c main_arg5 : S128x64.Idx → Elt Ideal .f32) (ix2 k q) := by
  obtain ⟨-, -, -, -, e4, e5, -⟩ := block_origin t
  unfold iblk2
  rw [View.read_apply]
  show V c main_arg5 _ = V c main_arg5 _
  refine congrArg _ ?_
  funext a
  apply Fin.ext
  match a with
  | ⟨0, _⟩ => show win2_2.index t 0 * 128 + 1 * k.val = k.val; rw [e4]; omega
  | ⟨1, _⟩ => show win2_2.index t 1 * 64 + 1 * q.val = q.val; rw [e5]; omega

/-- What point t writes back is block t of the scaled product of the arrays the region found. -/
theorem flushed_eq (c : Dev nD) (t : Fin cfg2.N) :
    (dat2 V c).flushed 3 t = ((cfg2.win 3).blk t).view.read (Elt Ideal)
      (scaledProduct (M := 50000) (K := 128) (N := 64) (V c main_v27) (V c main_v13) (V c main_arg5)) := by
  show (cfg2.win 3).cut (grid2.coords t) ((dat2 V c).after 3 t) = _
  rw [after2_3]
  unfold out2_3
  rw [View.canon_unit_zero hz]
  simp only [View.ld_unit_zero (S := S2000x128) hz, View.ld_unit_zero (S := S2000x1) hz, View.ld_unit_zero (S := S128x64) hz]
  funext j
  obtain ⟨p, q, rfl⟩ : ∃ (p : Fin 2000) (q : Fin 64), j = ix2 p q := ⟨j 0, j 1, eq_ix2 j⟩
  obtain ⟨-, -, -, -, -, -, e6, e7⟩ := block_origin t
  have hN : t.val < 25 := lt_of_lt_of_eq t.isLt N_2
  show k2_pay1 (iblk2 V c 0 t) (iblk2 V c 1 t) (iblk2 V c 2 t) (ix2 p q)
    = scaledProduct (M := 50000) (K := 128) (N := 64) (V c main_v27) (V c main_v13) (V c main_arg5) (((cfg2.win 3).blk t).view.emb (ix2 p q))
  have hr : ((cfg2.win 3).blk t).view.emb (ix2 p q) = ix2 (⟨t.val * 2000 + p.val, by omega⟩ : Fin 50000) q := by
    funext a
    apply Fin.ext
    match a with
    | ⟨0, _⟩ => show win2_3.index t 0 * 2000 + 1 * p.val = t.val * 2000 + p.val; rw [e6]; omega
    | ⟨1, _⟩ => show win2_3.index t 1 * 64 + 1 * q.val = q.val; rw [e7]; omega
  rw [hr, stored_apply, scaledProduct_apply]
  refine Finset.sum_congr rfl fun k _ => ?_
  rw [features_block V c t p k (ix2 (⟨t.val * 2000 + p.val, by omega⟩ : Fin 50000) k) rfl rfl,
    factors_block V c t p (ix2 (⟨t.val * 2000 + p.val, by omega⟩ : Fin 50000) (0 : Fin 1)) rfl,
    weights_block V c t k q]

/-- An entry of the product array is in point t's block iff its row is among the block's 2000 rows. -/
theorem mem_block (t : Fin cfg2.N) (i : S50000x64.Idx) :
    i ∈ ((cfg2.win 3).blk t).view.set ↔ ∀ a : Fin 2, win2_3.index t a * S2000x64.size a ≤ (i a).val ∧ (i a).val < win2_3.index t a * S2000x64.size a + S2000x64.size a := by
  show i ∈ ((View.whole main_v28).slice (win2_3.rect t)).set ↔ _
  rw [View.set_slice_whole, Rect.mem_set_unit]
  exact Iff.rfl

/-- Every entry of the product array lies in the block of the point its row divided by 2000 names. -/
theorem covered (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 25 := N_2
  obtain ⟨t, ht⟩ : ∃ t : Fin cfg2.N, t.val = (i 0).val / 2000 := ⟨⟨(i 0).val / 2000, by rw [hN]; omega⟩, rfl⟩
  obtain ⟨-, -, -, -, -, -, e6, e7⟩ := block_origin t
  refine ⟨t, flush2_3 t, ?_⟩
  rw [mem_block]
  intro a
  match a with
  | ⟨0, _⟩ => show win2_3.index t 0 * 2000 ≤ (i 0).val ∧ (i 0).val < win2_3.index t 0 * 2000 + 2000; rw [e6, ht]; omega
  | ⟨1, _⟩ => show win2_3.index t 1 * 64 ≤ (i 1).val ∧ (i 1).val < win2_3.index t 1 * 64 + 64; rw [e7]; omega

/-- The array the region leaves is the scaled product of the arrays it found. -/
theorem final (c : Dev nD) :
    (dat2 V c).arrAt 3 cfg2.N = scaledProduct (M := 50000) (K := 128) (N := 64) (V c main_v27) (V c main_v13) (V c main_arg5) :=
  (dat2 V c).arrAt_eq_of_cover 3 _ (fun t _ => flushed_eq V c t) covered

end Cert.KernelIdeal.SecondProduct

end
-- ==== Proof.SecondOutput.lean ====
/-
  The second layer's output stage, block by block and then as one array.

  As in the first layer but with 64 columns and without the maximum with zero: point t of the 25 stores
  g (p, q) · d (p, 0) + β (0, q) at entry (p, q) of rows 2000·t … 2000·t + 1999, from the same rows of the aggregated
  features and of the destination-side factors and the one-row table of biases. The blocks tile the 50000 rows.
-/
import proofs.«172578_j13580686590542_1_alg».proof.Proof.Gen.KernelIdeal.Frame
import proofs.«172578_j13580686590542_1_alg».proof.Proof.Layers
import proofs.«172578_j13580686590542_1_alg».proof.Proof.LibTransposeRepeat
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.SecondOutput

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- What the body stores, at entry (p, q) of the block: g (p, q) · d (p, 0) + β (0, q). -/
theorem stored_apply (x0 : Vec Ideal S2000x64 .f32) (x1 : Vec Ideal S2000x1 .f32) (x2 : Vec Ideal S1x64 .f32)
    (p : Fin 2000) (q : Fin 64) :
    k3_pay1 (F := Ideal) x0 x1 x2 (ix2 p q) = x0 (ix2 p q) * x1 (ix2 p (0 : Fin 1)) + x2 (ix2 (0 : Fin 1) q) := by
  unfold k3_pay1
  show shapeCast S2000x64 x0 shapeCasts_S2000x64_S2000x64 (ix2 p q) * broadcastTo S2000x64 (shapeCast S2000x1 x1 shapeCasts_S2000x1_S2000x1) broadcasts_S2000x1_S2000x64 (ix2 p q) + broadcastTo S2000x64 (shapeCast S1x64 x2 shapeCasts_S1x64_S1x64) broadcasts_S1x64_S2000x64 (ix2 p q) = _
  rw [Cert.LibTransposeRepeat.colRepeat_apply (φ := .f32), Cert.LibTransposeRepeat.rowRepeat_apply (φ := .f32),
    shapeCast_self, shapeCast_self, shapeCast_self]

/-- Where each window's block sits at point t: rows from 2000·t for the aggregated features, the factors and the result;
    the whole one-row table of biases. -/
theorem block_origin : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Entry (p, q) of the aggregated features' block at point t is entry (2000·t + p, q) of the aggregated features. -/
theorem aggregate_block (c : Dev nD) (t : Fin cfg3.N) (p : Fin 2000) (q : Fin 64) (i : S50000x64.Idx)
    (h0 : (i 0).val = t.val * 2000 + p.val) (h1 : (i 1).val = q.val) :
    (iblk3 V c 0 t : Vec Ideal S2000x64 .f32) (ix2 p q) = (V c main_v38 : S50000x64.Idx → Elt Ideal .f32) i := by
  obtain ⟨e0, e1, -⟩ := block_origin t
  unfold iblk3
  rw [View.read_apply]
  show V c main_v38 _ = V c main_v38 _
  refine congrArg _ ?_
  funext a
  apply Fin.ext
  match a with
  | ⟨0, _⟩ => show win3_0.index t 0 * 2000 + 1 * p.val = (i 0).val; rw [e0, h0]; omega
  | ⟨1, _⟩ => show win3_0.index t 1 * 64 + 1 * q.val = (i 1).val; rw [e1, h1]; omega

/-- Entry (p, 0) of the factors' block at point t is entry (2000·t + p, 0) of the table of factors. -/
theorem factors_block (c : Dev nD) (t : Fin cfg3.N) (p : Fin 2000) (i : S50000x1.Idx)
    (h0 : (i 0).val = t.val * 2000 + p.val) :
    (iblk3 V c 1 t : Vec Ideal S2000x1 .f32) (ix2 p (0 : Fin 1)) = (V c main_v14 : S50000x1.Idx → Elt Ideal .f32) i := by
  obtain ⟨-, -, e2, e3, -⟩ := block_origin t
  unfold iblk3
  rw [View.read_apply]
  show V c main_v14 _ = V c main_v14 _
  refine congrArg _ ?_
  funext a
  apply Fin.ext
  match a with
  | ⟨0, _⟩ => show win3_1.index t 0 * 2000 + 1 * p.val = (i 0).val; rw [e2, h0]; omega
  | ⟨1, _⟩ => show win3_1.index t 1 * 1 + 1 * (0 : Fin 1).val = (i 1).val
              have h1 : (i 1).val = 0 := Nat.lt_one_iff.mp (i 1).isLt
              rw [e3, h1]; rfl

/-- The biases' block at every point is the whole one-row table. -/
theorem bias_block (c : Dev nD) (t : Fin cfg3.N) (q : Fin 64) :
    (iblk3 V c 2 t : Vec Ideal S1x64 .f32) (ix2 (0 : Fin 1) q) = (V c main_v39 : S1x64.Idx → Elt Ideal .f32) (ix2 (0 : Fin 1) q) := by
  obtain ⟨-, -, -, -, e4, e5, -⟩ := block_origin t
  unfold iblk3
  rw [View.read_apply]
  show V c main_v39 _ = V c main_v39 _
  refine congrArg _ ?_
  funext a
  apply Fin.ext
  match a with
  | ⟨0, _⟩ => show win3_2.index t 0 * 1 + 1 * (0 : Fin 1).val = (0 : Fin 1).val; rw [e4]; rfl
  | ⟨1, _⟩ => show win3_2.index t 1 * 64 + 1 * q.val = q.val; rw [e5]; omega

/-- What point t writes back is block t of the scaled and shifted array of the arrays the region found. -/
theorem flushed_eq (c : Dev nD) (t : Fin cfg3.N) :
    (dat3 V c).flushed 3 t = ((cfg3.win 3).blk t).view.read (Elt Ideal)
      (scaleShift (M := 50000) (N := 64) (V c main_v38) (V c main_v14) (V c main_v39)) := by
  show (cfg3.win 3).cut (grid3.coords t) ((dat3 V c).after 3 t) = _
  rw [after3_3]
  unfold out3_3
  rw [View.canon_unit_zero hz]
  simp only [View.ld_unit_zero (S := S2000x64) hz, View.ld_unit_zero (S := S2000x1) hz, View.ld_unit_zero (S := S1x64) hz]
  funext j
  obtain ⟨p, q, rfl⟩ : ∃ (p : Fin 2000) (q : Fin 64), j = ix2 p q := ⟨j 0, j 1, eq_ix2 j⟩
  obtain ⟨-, -, -, -, -, -, e6, e7⟩ := block_origin t
  have hN : t.val < 25 := lt_of_lt_of_eq t.isLt N_3
  show k3_pay1 (iblk3 V c 0 t) (iblk3 V c 1 t) (iblk3 V c 2 t) (ix2 p q)
    = scaleShift (M := 50000) (N := 64) (V c main_v38) (V c main_v14) (V c main_v39) (((cfg3.win 3).blk t).view.emb (ix2 p q))
  have hr : ((cfg3.win 3).blk t).view.emb (ix2 p q) = ix2 (⟨t.val * 2000 + p.val, by omega⟩ : Fin 50000) q := by
    funext a
    apply Fin.ext
    match a with
    | ⟨0, _⟩ => show win3_3.index t 0 * 2000 + 1 * p.val = t.val * 2000 + p.val; rw [e6]; omega
    | ⟨1, _⟩ => show win3_3.index t 1 * 64 + 1 * q.val = q.val; rw [e7]; omega
  rw [hr, stored_apply, scaleShift_apply,
    aggregate_block V c t p q (ix2 (⟨t.val * 2000 + p.val, by omega⟩ : Fin 50000) q) rfl rfl,
    factors_block V c t p (ix2 (⟨t.val * 2000 + p.val, by omega⟩ : Fin 50000) (0 : Fin 1)) rfl,
    bias_block V c t q]

/-- An entry of the result array is in point t's block iff its row is among the block's 2000 rows. -/
theorem mem_block (t : Fin cfg3.N) (i : S50000x64.Idx) :
    i ∈ ((cfg3.win 3).blk t).view.set ↔ ∀ a : Fin 2, win3_3.index t a * S2000x64.size a ≤ (i a).val ∧ (i a).val < win3_3.index t a * S2000x64.size a + S2000x64.size a := by
  show i ∈ ((View.whole main_v40).slice (win3_3.rect t)).set ↔ _
  rw [View.set_slice_whole, Rect.mem_set_unit]
  exact Iff.rfl

/-- Every entry of the result array lies in the block of the point its row divided by 2000 names. -/
theorem covered (i : S50000x64.Idx) : ∃ t : Fin cfg3.N, (cfg3.win 3).flush t = true ∧ i ∈ ((cfg3.win 3).blk t).view.set := by
  have hi0 : (i 0).val < 50000 := (i 0).isLt
  have hi1 : (i 1).val < 64 := (i 1).isLt
  have hN : cfg3.N = 25 := N_3
  obtain ⟨t, ht⟩ : ∃ t : Fin cfg3.N, t.val = (i 0).val / 2000 := ⟨⟨(i 0).val / 2000, by rw [hN]; omega⟩, rfl⟩
  obtain ⟨-, -, -, -, -, -, e6, e7⟩ := block_origin t
  refine ⟨t, flush3_3 t, ?_⟩
  rw [mem_block]
  intro a
  match a with
  | ⟨0, _⟩ => show win3_3.index t 0 * 2000 ≤ (i 0).val ∧ (i 0).val < win3_3.index t 0 * 2000 + 2000; rw [e6, ht]; omega
  | ⟨1, _⟩ => show win3_3.index t 1 * 64 ≤ (i 1).val ∧ (i 1).val < win3_3.index t 1 * 64 + 64; rw [e7]; omega

/-- The array the region leaves is the scaled and shifted array of the arrays it found. -/
theorem final (c : Dev nD) :
    (dat3 V c).arrAt 3 cfg3.N = scaleShift (M := 50000) (N := 64) (V c main_v38) (V c main_v14) (V c main_v39) :=
  (dat3 V c).arrAt_eq_of_cover 3 _ (fun t _ => flushed_eq V c t) covered

end Cert.KernelIdeal.SecondOutput

end
-- ==== Proof.Stages.lean ====
/-
  Each of the four kernel regions, seen from the host program around it, is one operation: it reads three arrays and
  writes a fourth, the stage's function of the three (the scaled product, or the scaled and shifted array), and leaves
  every other buffer alone. So the buffer contents at the region's exit are those a single host operation with that
  function would leave, and the whole program's buffer contents are a fold of host operations from the launch memory.
-/
import proofs.«172578_j13580686590542_1_alg».proof.Proof.FirstProduct
import proofs.«172578_j13580686590542_1_alg».proof.Proof.FirstOutput
import proofs.«172578_j13580686590542_1_alg».proof.Proof.SecondProduct
import proofs.«172578_j13580686590542_1_alg».proof.Proof.SecondOutput
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Stages

open Cert.KernelIdeal Cert.KernelIdeal.Gen Cert.Gcn

variable (m : (ℓ : Loc nD τ sig) → Buf (Elt Ideal) ℓ) (ρ : Dev nD → PrngReg)

/-- The first scaled product as one operation: from the features, the source-side factors and the first weights. -/
abbrev firstProductOp : HloOp τ sig (Elt Ideal) :=
  StableHlo.ternary main_arg0 main_v13 main_arg3 main_v15
    ((fun x y z => scaledProduct (M := 50000) (K := 256) (N := 128) x y z) :
      (⟨S50000x256, .f32⟩ : BufTy).Contents (Elt Ideal) → (⟨S50000x1, .f32⟩ : BufTy).Contents (Elt Ideal) →
      (⟨S256x128, .f32⟩ : BufTy).Contents (Elt Ideal) → (⟨S50000x128, .f32⟩ : BufTy).Contents (Elt Ideal))

/-- At each of the region's four arrays the contents it leaves are the operation's: an input array is untouched, the
    output array is the stage's function of the three inputs. -/
theorem firstProduct_arrays (c : Dev nD) : ∀ w : Fin 4,
    W6 m ρ c (Proc.devRef .tc (Pipeline.arrRef spec0 w))
      = StableHlo.after [firstProductOp] (W5 m ρ c) (Proc.devRef .tc (Pipeline.arrRef spec0 w))
  | 0 => by
    rw [W6_arr, (dat0 (V5 m ρ) c).arrAt_in 0 rfl _, A_eq0]
    show W5 m ρ c (Proc.devRef .tc main_arg0) = StableHlo.after [firstProductOp] (W5 m ρ c) (Proc.devRef .tc main_arg0)
    generalize W5 m ρ c = X
    symm
    after_results
  | 1 => by
    rw [W6_arr, (dat0 (V5 m ρ) c).arrAt_in 1 rfl _, A_eq0]
    show W5 m ρ c (Proc.devRef .tc main_v13) = StableHlo.after [firstProductOp] (W5 m ρ c) (Proc.devRef .tc main_v13)
    generalize W5 m ρ c = X
    symm
    after_results
  | 2 => by
    rw [W6_arr, (dat0 (V5 m ρ) c).arrAt_in 2 rfl _, A_eq0]
    show W5 m ρ c (Proc.devRef .tc main_arg3) = StableHlo.after [firstProductOp] (W5 m ρ c) (Proc.devRef .tc main_arg3)
    generalize W5 m ρ c = X
    symm
    after_results
  | 3 => by
    rw [W6_arr, Cert.KernelIdeal.FirstProduct.final (V5 m ρ) c]
    show scaledProduct (M := 50000) (K := 256) (N := 128) (W5 m ρ c (Proc.devRef .tc main_arg0)) (W5 m ρ c (Proc.devRef .tc main_v13)) (W5 m ρ c (Proc.devRef .tc main_arg3))
      = StableHlo.after [firstProductOp] (W5 m ρ c) (Proc.devRef .tc main_v15)
    generalize W5 m ρ c = X
    symm
    after_results
  | ⟨_ + 4, h⟩ => absurd h (Nat.not_lt.2 (Nat.le_add_left _ _))

/-- The buffer contents the region leaves are those the one operation leaves. -/
theorem firstProduct_as_op (c : Dev nD) : W6 m ρ c = StableHlo.after [firstProductOp] (W5 m ρ c) := by
  funext b
  by_cases h : ∃ w, Proc.devRef .tc (Pipeline.arrRef spec0 w) = b
  · obtain ⟨w, rfl⟩ := h
    exact firstProduct_arrays m ρ c w
  · have hb : b ∉ (firstProductOp).writes := by
      rw [StableHlo.ternary_writes, Finset.mem_singleton]
      intro e
      exact h ⟨3, e.symm⟩
    unfold W6 Pipeline.withArrays
    rw [dif_neg h]
    exact (HloOp.result_of_not_mem _ _ hb).symm

/-- The first output stage as one operation: from the aggregated features, the destination-side factors and the first biases. -/
abbrev firstOutputOp : HloOp τ sig (Elt Ideal) :=
  StableHlo.ternary main_v25 main_v14 main_v26 main_v27
    ((fun x y z => scaleShiftPos (M := 50000) (N := 128) x y z) :
      (⟨S50000x128, .f32⟩ : BufTy).Contents (Elt Ideal) → (⟨S50000x1, .f32⟩ : BufTy).Contents (Elt Ideal) →
      (⟨S1x128, .f32⟩ : BufTy).Contents (Elt Ideal) → (⟨S50000x128, .f32⟩ : BufTy).Contents (Elt Ideal))

/-- At each of the region's four arrays the contents it leaves are the operation's: an input array is untouched, the
    output array is the stage's function of the three inputs. -/
theorem firstOutput_arrays (c : Dev nD) : ∀ w : Fin 4,
    W8 m ρ c (Proc.devRef .tc (Pipeline.arrRef spec1 w))
      = StableHlo.after [firstOutputOp] (W7 m ρ c) (Proc.devRef .tc (Pipeline.arrRef spec1 w))
  | 0 => by
    rw [W8_arr, (dat1 (V7 m ρ) c).arrAt_in 0 rfl _, A_eq1]
    show W7 m ρ c (Proc.devRef .tc main_v25) = StableHlo.after [firstOutputOp] (W7 m ρ c) (Proc.devRef .tc main_v25)
    generalize W7 m ρ c = X
    symm
    after_results
  | 1 => by
    rw [W8_arr, (dat1 (V7 m ρ) c).arrAt_in 1 rfl _, A_eq1]
    show W7 m ρ c (Proc.devRef .tc main_v14) = StableHlo.after [firstOutputOp] (W7 m ρ c) (Proc.devRef .tc main_v14)
    generalize W7 m ρ c = X
    symm
    after_results
  | 2 => by
    rw [W8_arr, (dat1 (V7 m ρ) c).arrAt_in 2 rfl _, A_eq1]
    show W7 m ρ c (Proc.devRef .tc main_v26) = StableHlo.after [firstOutputOp] (W7 m ρ c) (Proc.devRef .tc main_v26)
    generalize W7 m ρ c = X
    symm
    after_results
  | 3 => by
    rw [W8_arr, Cert.KernelIdeal.FirstOutput.final (V7 m ρ) c]
    show scaleShiftPos (M := 50000) (N := 128) (W7 m ρ c (Proc.devRef .tc main_v25)) (W7 m ρ c (Proc.devRef .tc main_v14)) (W7 m ρ c (Proc.devRef .tc main_v26))
      = StableHlo.after [firstOutputOp] (W7 m ρ c) (Proc.devRef .tc main_v27)
    generalize W7 m ρ c = X
    symm
    after_results
  | ⟨_ + 4, h⟩ => absurd h (Nat.not_lt.2 (Nat.le_add_left _ _))

/-- The buffer contents the region leaves are those the one operation leaves. -/
theorem firstOutput_as_op (c : Dev nD) : W8 m ρ c = StableHlo.after [firstOutputOp] (W7 m ρ c) := by
  funext b
  by_cases h : ∃ w, Proc.devRef .tc (Pipeline.arrRef spec1 w) = b
  · obtain ⟨w, rfl⟩ := h
    exact firstOutput_arrays m ρ c w
  · have hb : b ∉ (firstOutputOp).writes := by
      rw [StableHlo.ternary_writes, Finset.mem_singleton]
      intro e
      exact h ⟨3, e.symm⟩
    unfold W8 Pipeline.withArrays
    rw [dif_neg h]
    exact (HloOp.result_of_not_mem _ _ hb).symm

/-- The second scaled product as one operation: from the hidden features, the source-side factors and the second weights. -/
abbrev secondProductOp : HloOp τ sig (Elt Ideal) :=
  StableHlo.ternary main_v27 main_v13 main_arg5 main_v28
    ((fun x y z => scaledProduct (M := 50000) (K := 128) (N := 64) x y z) :
      (⟨S50000x128, .f32⟩ : BufTy).Contents (Elt Ideal) → (⟨S50000x1, .f32⟩ : BufTy).Contents (Elt Ideal) →
      (⟨S128x64, .f32⟩ : BufTy).Contents (Elt Ideal) → (⟨S50000x64, .f32⟩ : BufTy).Contents (Elt Ideal))

/-- At each of the region's four arrays the contents it leaves are the operation's: an input array is untouched, the
    output array is the stage's function of the three inputs. -/
theorem secondProduct_arrays (c : Dev nD) : ∀ w : Fin 4,
    W9 m ρ c (Proc.devRef .tc (Pipeline.arrRef spec2 w))
      = StableHlo.after [secondProductOp] (W8 m ρ c) (Proc.devRef .tc (Pipeline.arrRef spec2 w))
  | 0 => by
    rw [W9_arr, (dat2 (V8 m ρ) c).arrAt_in 0 rfl _, A_eq2]
    show W8 m ρ c (Proc.devRef .tc main_v27) = StableHlo.after [secondProductOp] (W8 m ρ c) (Proc.devRef .tc main_v27)
    generalize W8 m ρ c = X
    symm
    after_results
  | 1 => by
    rw [W9_arr, (dat2 (V8 m ρ) c).arrAt_in 1 rfl _, A_eq2]
    show W8 m ρ c (Proc.devRef .tc main_v13) = StableHlo.after [secondProductOp] (W8 m ρ c) (Proc.devRef .tc main_v13)
    generalize W8 m ρ c = X
    symm
    after_results
  | 2 => by
    rw [W9_arr, (dat2 (V8 m ρ) c).arrAt_in 2 rfl _, A_eq2]
    show W8 m ρ c (Proc.devRef .tc main_arg5) = StableHlo.after [secondProductOp] (W8 m ρ c) (Proc.devRef .tc main_arg5)
    generalize W8 m ρ c = X
    symm
    after_results
  | 3 => by
    rw [W9_arr, Cert.KernelIdeal.SecondProduct.final (V8 m ρ) c]
    show scaledProduct (M := 50000) (K := 128) (N := 64) (W8 m ρ c (Proc.devRef .tc main_v27)) (W8 m ρ c (Proc.devRef .tc main_v13)) (W8 m ρ c (Proc.devRef .tc main_arg5))
      = StableHlo.after [secondProductOp] (W8 m ρ c) (Proc.devRef .tc main_v28)
    generalize W8 m ρ c = X
    symm
    after_results
  | ⟨_ + 4, h⟩ => absurd h (Nat.not_lt.2 (Nat.le_add_left _ _))

/-- The buffer contents the region leaves are those the one operation leaves. -/
theorem secondProduct_as_op (c : Dev nD) : W9 m ρ c = StableHlo.after [secondProductOp] (W8 m ρ c) := by
  funext b
  by_cases h : ∃ w, Proc.devRef .tc (Pipeline.arrRef spec2 w) = b
  · obtain ⟨w, rfl⟩ := h
    exact secondProduct_arrays m ρ c w
  · have hb : b ∉ (secondProductOp).writes := by
      rw [StableHlo.ternary_writes, Finset.mem_singleton]
      intro e
      exact h ⟨3, e.symm⟩
    unfold W9 Pipeline.withArrays
    rw [dif_neg h]
    exact (HloOp.result_of_not_mem _ _ hb).symm

/-- The second output stage as one operation: from the aggregated hidden features, the destination-side factors and the second biases. -/
abbrev secondOutputOp : HloOp τ sig (Elt Ideal) :=
  StableHlo.ternary main_v38 main_v14 main_v39 main_v40
    ((fun x y z => scaleShift (M := 50000) (N := 64) x y z) :
      (⟨S50000x64, .f32⟩ : BufTy).Contents (Elt Ideal) → (⟨S50000x1, .f32⟩ : BufTy).Contents (Elt Ideal) →
      (⟨S1x64, .f32⟩ : BufTy).Contents (Elt Ideal) → (⟨S50000x64, .f32⟩ : BufTy).Contents (Elt Ideal))

/-- At each of the region's four arrays the contents it leaves are the operation's: an input array is untouched, the
    output array is the stage's function of the three inputs. -/
theorem secondOutput_arrays (c : Dev nD) : ∀ w : Fin 4,
    W11 m ρ c (Proc.devRef .tc (Pipeline.arrRef spec3 w))
      = StableHlo.after [secondOutputOp] (W10 m ρ c) (Proc.devRef .tc (Pipeline.arrRef spec3 w))
  | 0 => by
    rw [W11_arr, (dat3 (V10 m ρ) c).arrAt_in 0 rfl _, A_eq3]
    show W10 m ρ c (Proc.devRef .tc main_v38) = StableHlo.after [secondOutputOp] (W10 m ρ c) (Proc.devRef .tc main_v38)
    generalize W10 m ρ c = X
    symm
    after_results
  | 1 => by
    rw [W11_arr, (dat3 (V10 m ρ) c).arrAt_in 1 rfl _, A_eq3]
    show W10 m ρ c (Proc.devRef .tc main_v14) = StableHlo.after [secondOutputOp] (W10 m ρ c) (Proc.devRef .tc main_v14)
    generalize W10 m ρ c = X
    symm
    after_results
  | 2 => by
    rw [W11_arr, (dat3 (V10 m ρ) c).arrAt_in 2 rfl _, A_eq3]
    show W10 m ρ c (Proc.devRef .tc main_v39) = StableHlo.after [secondOutputOp] (W10 m ρ c) (Proc.devRef .tc main_v39)
    generalize W10 m ρ c = X
    symm
    after_results
  | 3 => by
    rw [W11_arr, Cert.KernelIdeal.SecondOutput.final (V10 m ρ) c]
    show scaleShift (M := 50000) (N := 64) (W10 m ρ c (Proc.devRef .tc main_v38)) (W10 m ρ c (Proc.devRef .tc main_v14)) (W10 m ρ c (Proc.devRef .tc main_v39))
      = StableHlo.after [secondOutputOp] (W10 m ρ c) (Proc.devRef .tc main_v40)
    generalize W10 m ρ c = X
    symm
    after_results
  | ⟨_ + 4, h⟩ => absurd h (Nat.not_lt.2 (Nat.le_add_left _ _))

/-- The buffer contents the region leaves are those the one operation leaves. -/
theorem secondOutput_as_op (c : Dev nD) : W11 m ρ c = StableHlo.after [secondOutputOp] (W10 m ρ c) := by
  funext b
  by_cases h : ∃ w, Proc.devRef .tc (Pipeline.arrRef spec3 w) = b
  · obtain ⟨w, rfl⟩ := h
    exact secondOutput_arrays m ρ c w
  · have hb : b ∉ (secondOutputOp).writes := by
      rw [StableHlo.ternary_writes, Finset.mem_singleton]
      intro e
      exact h ⟨3, e.symm⟩
    unfold W11 Pipeline.withArrays
    rw [dif_neg h]
    exact (HloOp.result_of_not_mem _ _ hb).symm

end Cert.KernelIdeal.Stages

end
-- ==== Proof.LibDotGeneral.lean ====
/-
  A plain M × K by K × N host matrix product (`dot_general` contracting the left operand's second axis with the right
  operand's first), read at one entry: at the exact (extended real) values the entry (a, b) is the sum over the contracted
  coordinate c of A (a, c) · B (c, b), whatever schedule the host uses.
-/
import Idealize.ShloMosaic.Lib.ValueIdx
import Idealize.ShloMosaic.PureOps.Ideal.Laws

noncomputable section

open scoped BigOperators

namespace Cert.LibDotGeneral

open Idealize.ShloMosaic Idealize.ShloMosaic.ValueIdx

/-- The host product of an `M × K` by a `K × N` matrix, at entry `(a, b)`, is `∑ c, A (a, c) · B (c, b)` over the
    extended reals. -/
theorem dotGeneral_plain_apply {M K N : Nat} {φ₁ φ₂ : FTy} (prec : Option ContractPrecision) (sched : HostSchedule)
    (A : FVec Ideal ⟨2, ![M, K]⟩ φ₁) (B : FVec Ideal ⟨2, ![K, N]⟩ φ₂) (a : Fin M) (b : Fin N) :
    FloatOps.dotGeneral (DotDims.plain M K N) prec sched A B (ix2 a b) = ∑ c : Fin K, A (ix2 a c) * B (ix2 c b) := by
  rw [Ideal.dotGeneral_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.LibDotGeneral

end
-- ==== Proof.LibLayout.lean ====
/-
  Layout facts about arrays of any element type, read at an entry: a one-row or one-column table repeated along the other
  axis; a vector laid out as one row or one column, by a cast or by a placement along an axis (the two agree);
  putting a coordinate back on the reduced axis 0.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibLayout

open Idealize.ShloMosaic Idealize.ShloMosaic.ValueIdx

variable {α : Type}

/-- A one-row table placed along both axes of an M × N array reads, at (a, b), the table at (0, b). -/
theorem rowInDim_apply {M N : Nat} (v : (⟨2, ![1, N]⟩ : Shape).Idx → α)
    (h : (⟨2, ![1, N]⟩ : Shape).BroadcastsInDim ⟨2, ![M, N]⟩ ![0, 1]) (a : Fin M) (b : Fin N) :
    broadcastInDim ⟨2, ![M, N]⟩ ![0, 1] h v (ix2 a b) = v (ix2 (0 : Fin 1) b) :=
  broadcastInDim_apply ![0, 1] h v (ix2 a b) (ix2 (0 : Fin 1) b) (fun c => by
    match c with
    | ⟨0, _⟩ => show (0 : Nat) = if (1 : Nat) = 1 then 0 else _; rw [if_pos rfl]
    | ⟨1, _⟩ =>
      show b.val = if N = 1 then 0 else b.val
      split
      · have := b.isLt; omega
      · rfl)

/-- A one-column table placed along both axes of an M × N array reads, at (a, b), the table at (a, 0). -/
theorem colInDim_apply {M N : Nat} (v : (⟨2, ![M, 1]⟩ : Shape).Idx → α)
    (h : (⟨2, ![M, 1]⟩ : Shape).BroadcastsInDim ⟨2, ![M, N]⟩ ![0, 1]) (a : Fin M) (b : Fin N) :
    broadcastInDim ⟨2, ![M, N]⟩ ![0, 1] h v (ix2 a b) = v (ix2 a (0 : Fin 1)) :=
  broadcastInDim_apply ![0, 1] h v (ix2 a b) (ix2 a (0 : Fin 1)) (fun c => by
    match c with
    | ⟨0, _⟩ =>
      show a.val = if M = 1 then 0 else a.val
      split
      · have := a.isLt; omega
      · rfl
    | ⟨1, _⟩ => show (0 : Nat) = if (1 : Nat) = 1 then 0 else _; rw [if_pos rfl])

/-- A vector placed along axis 1 of a 1 × N array reads, at (0, b), the vector at b. -/
theorem vecRow_apply {N : Nat} (v : (⟨1, ![N]⟩ : Shape).Idx → α)
    (h : (⟨1, ![N]⟩ : Shape).BroadcastsInDim ⟨2, ![1, N]⟩ ![1]) (b : Fin N) :
    broadcastInDim ⟨2, ![1, N]⟩ ![1] h v (ix2 (0 : Fin 1) b) = v (ix1 b) :=
  broadcastInDim_apply ![1] h v (ix2 (0 : Fin 1) b) (ix1 b) (fun c => by
    match c with
    | ⟨0, _⟩ =>
      show b.val = if N = 1 then 0 else b.val
      split
      · have := b.isLt; omega
      · rfl)

/-- A vector placed along axis 0 of an M × 1 array reads, at (a, 0), the vector at a. -/
theorem vecCol_apply {M : Nat} (v : (⟨1, ![M]⟩ : Shape).Idx → α)
    (h : (⟨1, ![M]⟩ : Shape).BroadcastsInDim ⟨2, ![M, 1]⟩ ![0]) (a : Fin M) :
    broadcastInDim ⟨2, ![M, 1]⟩ ![0] h v (ix2 a (0 : Fin 1)) = v (ix1 a) :=
  broadcastInDim_apply ![0] h v (ix2 a (0 : Fin 1)) (ix1 a) (fun c => by
    match c with
    | ⟨0, _⟩ =>
      show a.val = if M = 1 then 0 else a.val
      split
      · have := a.isLt; omega
      · rfl)

/-- A vector cast to one column reads, at (a, 0), the vector at a. -/
theorem castCol_apply {M : Nat} (v : (⟨1, ![M]⟩ : Shape).Idx → α) (h : (⟨1, ![M]⟩ : Shape).ShapeCasts ⟨2, ![M, 1]⟩) (a : Fin M) :
    shapeCast ⟨2, ![M, 1]⟩ v h (ix2 a (0 : Fin 1)) = v (ix1 a) :=
  shapeCast_apply v h _ _ (by
    rw [Shape.rowMajor_val_two, Shape.rowMajor_val_one]
    show a.val = a.val * 1 + 0
    omega)

/-- Laying a vector out as one row by a cast or by placing it along axis 1 gives the same array. -/
theorem castRow_eq {N : Nat} (v : (⟨1, ![N]⟩ : Shape).Idx → α) (h1 : (⟨1, ![N]⟩ : Shape).ShapeCasts ⟨2, ![1, N]⟩)
    (h2 : (⟨1, ![N]⟩ : Shape).BroadcastsInDim ⟨2, ![1, N]⟩ ![1]) :
    shapeCast ⟨2, ![1, N]⟩ v h1 = broadcastInDim ⟨2, ![1, N]⟩ ![1] h2 v := by
  funext j
  obtain ⟨z, b, rfl⟩ : ∃ (z : Fin 1) (b : Fin N), j = ix2 z b := ⟨j 0, j 1, eq_ix2 j⟩
  obtain rfl : z = 0 := Subsingleton.elim _ _
  rw [shapeCast_a_1a_apply, vecRow_apply]

/-- Laying a vector out as one column by a cast or by placing it along axis 0 gives the same array. -/
theorem castCol_eq {M : Nat} (v : (⟨1, ![M]⟩ : Shape).Idx → α) (h1 : (⟨1, ![M]⟩ : Shape).ShapeCasts ⟨2, ![M, 1]⟩)
    (h2 : (⟨1, ![M]⟩ : Shape).BroadcastsInDim ⟨2, ![M, 1]⟩ ![0]) :
    shapeCast ⟨2, ![M, 1]⟩ v h1 = broadcastInDim ⟨2, ![M, 1]⟩ ![0] h2 v := by
  funext j
  obtain ⟨a, z, rfl⟩ : ∃ (a : Fin M) (z : Fin 1), j = ix2 a z := ⟨j 0, j 1, eq_ix2 j⟩
  obtain rfl : z = 0 := Subsingleton.elim _ _
  rw [castCol_apply, vecCol_apply]

/-- A scalar placed along no axis reads the scalar everywhere. -/
theorem splat_apply {t : Shape} (x : (⟨0, ![]⟩ : Shape).Idx → α) (h : (⟨0, ![]⟩ : Shape).BroadcastsInDim t ![]) (j : t.Idx) :
    broadcastInDim t ![] h x j = x ix0 :=
  broadcastInDim_apply ![] h x j ix0 (fun c => c.elim0)

/-- Putting coordinate k back on axis 0 of a column index g gives the entry (k, g). -/
theorem lift_axis0 {m n : Nat} (h : (⟨2, ![m, n]⟩ : Shape).Reduces [0] (⟨1, ![n]⟩ : Shape)) (g : Fin n)
    (k : Fin ((⟨2, ![m, n]⟩ : Shape).size 0)) : h.lift (ix1 g) k = ix2 (⟨k.val, k.isLt⟩ : Fin m) g := by
  funext c; apply Fin.ext
  fin_cases c <;> rfl

end Cert.LibLayout

end
-- ==== Proof.RefLayers.lean ====
/-
  The reference's dense stages are the same entry-by-entry functions as the kernel's.

  The reference lays a length-50000 vector of degree factors out as one column and repeats it across the columns, then
  multiplies entry by entry and takes the host matrix product: at entry (a, b) that is ∑ k, (x (a, k) · s (a)) · W (k, b),
  the scaled product with the factors as a one-column table. Likewise its output stage repeats the column of
  destination-side factors and the row of biases over the whole array, multiplies, adds and (in the first layer) takes
  the maximum with a splat of zero: g (a, b) · d (a) + β (b), or zero if that is negative. A vector laid out as a column
  (or a row) by a placement along an axis is the same array as the vector cast to that shape, which is how the kernel's
  host code makes its one-column and one-row tables.
-/
import proofs.«172578_j13580686590542_1_alg».proof.Proof.Gen.ReferenceIdeal
import proofs.«172578_j13580686590542_1_alg».proof.Proof.Layers
import proofs.«172578_j13580686590542_1_alg».proof.Proof.LibDotGeneral
import proofs.«172578_j13580686590542_1_alg».proof.Proof.LibLayout
import Idealize.ShloMosaic.Lib.ValueIdx
import Idealize.ShloMosaic.Lib.ValueLayout
import Idealize.ShloMosaic.Lib.Pipeline.Value

noncomputable section

open Idealize.ShloMosaic Idealize.ShloMosaic.ValueIdx
open scoped BigOperators

namespace Cert.ReferenceIdeal.Layers

open Cert.ReferenceIdeal Cert.ReferenceIdeal.Gen Cert.Gcn

theorem castsCol : (⟨1, ![50000]⟩ : Shape).ShapeCasts ⟨2, ![50000, 1]⟩ := by decide
theorem castsRow128 : (⟨1, ![128]⟩ : Shape).ShapeCasts ⟨2, ![1, 128]⟩ := by decide
theorem castsRow64 : (⟨1, ![64]⟩ : Shape).ShapeCasts ⟨2, ![1, 64]⟩ := by decide

/-- The first layer's host product of the row-scaled features is the scaled product with the factors cast to a column. -/
theorem product_first (x : FVec Ideal S50000x256 .f32) (v : FVec Ideal S50000 .f32) (W : FVec Ideal S256x128 .f32) :
    Host.dotGeneral dot_S50000x256_S256x128_S50000x128_1_0_0_1_n_n none
        (mulf x (broadcastInDim S50000x256 ![0, 1] bcast_S50000x1_S50000x256_0_1 (broadcastInDim S50000x1 ![0] bcast_S50000_S50000x1_0 v))) W
      = scaledProduct (M := 50000) (K := 256) (N := 128) x (shapeCast S50000x1 v castsCol) W := by
  rw [Cert.LibLayout.castCol_eq v castsCol bcast_S50000_S50000x1_0]
  funext i
  obtain ⟨a, b, rfl⟩ : ∃ (a : Fin 50000) (b : Fin 128), i = ix2 a b := ⟨i 0, i 1, eq_ix2 i⟩
  rw [scaledProduct_apply]
  refine (Cert.LibDotGeneral.dotGeneral_plain_apply (M := 50000) (K := 256) (N := 128) none .single _ _ a b).trans ?_
  refine Finset.sum_congr rfl fun k _ => ?_
  rw [mulf_apply, Cert.LibLayout.colInDim_apply]

/-- The second layer's host product of the row-scaled hidden features, likewise. -/
theorem product_second (x : FVec Ideal S50000x128 .f32) (v : FVec Ideal S50000 .f32) (W : FVec Ideal S128x64 .f32) :
    Host.dotGeneral dot_S50000x128_S128x64_S50000x64_1_0_0_1_n_n none
        (mulf x (broadcastInDim S50000x128 ![0, 1] bcast_S50000x1_S50000x128_0_1 (broadcastInDim S50000x1 ![0] bcast_S50000_S50000x1_0 v))) W
      = scaledProduct (M := 50000) (K := 128) (N := 64) x (shapeCast S50000x1 v castsCol) W := by
  rw [Cert.LibLayout.castCol_eq v castsCol bcast_S50000_S50000x1_0]
  funext i
  obtain ⟨a, b, rfl⟩ : ∃ (a : Fin 50000) (b : Fin 64), i = ix2 a b := ⟨i 0, i 1, eq_ix2 i⟩
  rw [scaledProduct_apply]
  refine (Cert.LibDotGeneral.dotGeneral_plain_apply (M := 50000) (K := 128) (N := 64) none .single _ _ a b).trans ?_
  refine Finset.sum_congr rfl fun k _ => ?_
  rw [mulf_apply, Cert.LibLayout.colInDim_apply]

/-- The first layer's output stage on the host: scale by the column of factors, add the row of biases, maximum with zero. -/
theorem output_first (g : FVec Ideal S50000x128 .f32) (v : FVec Ideal S50000 .f32) (β : FVec Ideal S128 .f32) :
    maximumf (addf (mulf g (broadcastInDim S50000x128 ![0, 1] bcast_S50000x1_S50000x128_0_1 (broadcastInDim S50000x1 ![0] bcast_S50000_S50000x1_0 v)))
        (broadcastInDim S50000x128 ![0, 1] bcast_S1x128_S50000x128_0_1 (broadcastInDim S1x128 ![1] bcast_S128_S1x128_1 β)))
        (broadcastInDim S50000x128 ![] bcast_S_S50000x128 (constant S_ .f32 0x00000000#32))
      = scaleShiftPos (M := 50000) (N := 128) g (shapeCast S50000x1 v castsCol) (shapeCast S1x128 β castsRow128) := by
  rw [Cert.LibLayout.castCol_eq v castsCol bcast_S50000_S50000x1_0, Cert.LibLayout.castRow_eq β castsRow128 bcast_S128_S1x128_1]
  funext i
  obtain ⟨a, b, rfl⟩ : ∃ (a : Fin 50000) (b : Fin 128), i = ix2 a b := ⟨i 0, i 1, eq_ix2 i⟩
  rw [scaleShiftPos_apply, maximumf_apply, addf_apply, mulf_apply, Cert.LibLayout.colInDim_apply, Cert.LibLayout.rowInDim_apply,
    Cert.LibLayout.splat_apply]
  rfl

/-- The second layer's output stage on the host: scale by the column of factors, add the row of biases. -/
theorem output_second (g : FVec Ideal S50000x64 .f32) (v : FVec Ideal S50000 .f32) (β : FVec Ideal S64 .f32) :
    addf (mulf g (broadcastInDim S50000x64 ![0, 1] bcast_S50000x1_S50000x64_0_1 (broadcastInDim S50000x1 ![0] bcast_S50000_S50000x1_0 v)))
        (broadcastInDim S50000x64 ![0, 1] bcast_S1x64_S50000x64_0_1 (broadcastInDim S1x64 ![1] bcast_S64_S1x64_1 β))
      = scaleShift (M := 50000) (N := 64) g (shapeCast S50000x1 v castsCol) (shapeCast S1x64 β castsRow64) := by
  rw [Cert.LibLayout.castCol_eq v castsCol bcast_S50000_S50000x1_0, Cert.LibLayout.castRow_eq β castsRow64 bcast_S64_S1x64_1]
  funext i
  obtain ⟨a, b, rfl⟩ : ∃ (a : Fin 50000) (b : Fin 64), i = ix2 a b := ⟨i 0, i 1, eq_ix2 i⟩
  rw [scaleShift_apply, addf_apply, mulf_apply, Cert.LibLayout.colInDim_apply, Cert.LibLayout.rowInDim_apply]

end Cert.ReferenceIdeal.Layers

end
-- ==== Proof.LibHostCalls.lean ====
/-
  Two general facts for reading back, by hand, the run of a host program that calls module-local functions.

  The operations of an inlined callee are built over typed references, which carry contents to the buffer's own type and
  back; after the run's fold is unfolded every intermediate value sits inside such a round trip. The round trip is the
  identity, for ANY typed reference (no computation on the reference is needed), so one rewriting pass removes them all;
  leaving them to a single definitional check costs time and memory that grow with the nesting (at shapes of a hundred
  million elements, gigabytes). And the contents after two lines of operations run in a row are the second line's from
  the first's, which lets a long line be read in pieces.
-/
import Idealize.ShloMosaic.Lib.StableHlo.Run

noncomputable section

namespace Cert.LibHostCalls

open Idealize.ShloMosaic Idealize.ShloMosaic.StableHlo

variable {τ : Topo} {sig : RefSig} {Val : EltTy → Type}

/-- Contents carried to a typed reference's buffer and back are the contents. -/
theorem ofBuf_toBuf {T : BufTy} (x : TRef sig T) (v : T.Contents Val) : x.ofBuf (x.toBuf v) = v := by
  obtain ⟨r, h, h1, h2⟩ := x
  subst h
  rfl

/-- The contents after two lines of operations in a row are the second line's from the first's. -/
theorem after_append (l₁ l₂ : List (HloOp τ sig Val)) (V : Valuation τ sig Val) :
    after (l₁ ++ l₂) V = after l₂ (after l₁ V) := by
  induction l₁ generalizing V with
  | nil => rfl
  | cons op l ih => exact ih _

end Cert.LibHostCalls

end
-- ==== Proof.Bridge.lean ====
/-
  The two programs compute the same array.

  Folding the kernel's segments from the launch memory, with each region read as its one operation, gives the result
  array as a composition: degree factors from the two edge lists (a sum of ones per node, at least one, to the power
  −1/2), the first scaled product, the edge-wise gather and sum, the first output stage, the second scaled product,
  the gather and sum again, the second output stage. The reference's result is the same composition with each dense
  stage spelt as host operations; those are the same functions, and every other operation is the same on both sides.
-/
import proofs.«172578_j13580686590542_1_alg».proof.Proof.Stages
import proofs.«172578_j13580686590542_1_alg».proof.Proof.RefLayers
import proofs.«172578_j13580686590542_1_alg».proof.Proof.LibHostCalls
import proofs.«172578_j13580686590542_1_alg».proof.Proof.Gen.ReferenceIdeal.Run

set_option maxRecDepth 16384

noncomputable section

open Idealize.ShloMosaic Idealize.ShloMosaic.TcCoe Idealize.SL.Sem Idealize.ShloMosaic.StableHlo

namespace Cert.Bridge

open Cert.Gcn

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

section Normal

open Cert.KernelIdeal Cert.KernelIdeal.Gen

/-- Contents carried into the buffer of a value of a called function, or read back from it, are the contents: the
    buffer's type is the value's. -/
theorem toBuf_v7 (p1 : main_v7.ty = ⟨S50000, .f32⟩) (p2 p3) (X : FVec Ideal S50000 .f32) :
    (TRef.of (T := ⟨S50000, .f32⟩) main_v7 p1 p2 p3).toBuf (Val := Elt Ideal) X = X := rfl
theorem toBuf_v10 (p1 : main_v10.ty = ⟨S50000, .f32⟩) (p2 p3) (X : FVec Ideal S50000 .f32) :
    (TRef.of (T := ⟨S50000, .f32⟩) main_v10 p1 p2 p3).toBuf (Val := Elt Ideal) X = X := rfl
theorem ofBuf_v3 (p1 : main_v3.ty = ⟨S50000, .f32⟩) (p2 p3) (X : FVec Ideal S50000 .f32) :
    (TRef.of (T := ⟨S50000, .f32⟩) main_v3 p1 p2 p3).ofBuf (Val := Elt Ideal) X = X := rfl
theorem ofBuf_v6 (p1 : main_v6.ty = ⟨S50000, .f32⟩) (p2 p3) (X : FVec Ideal S50000 .f32) :
    (TRef.of (T := ⟨S50000, .f32⟩) main_v6 p1 p2 p3).ofBuf (Val := Elt Ideal) X = X := rfl
theorem ofBuf_cst_2 (p1 : main_cst_2.ty = ⟨S_, .f32⟩) (p2 p3) (X : FVec Ideal S_ .f32) :
    (TRef.of (T := ⟨S_, .f32⟩) main_cst_2 p1 p2 p3).ofBuf (Val := Elt Ideal) X = X := rfl
theorem ofBuf_cst_4 (p1 : main_cst_4.ty = ⟨S_, .f32⟩) (p2 p3) (X : FVec Ideal S_ .f32) :
    (TRef.of (T := ⟨S_, .f32⟩) main_cst_4 p1 p2 p3).ofBuf (Val := Elt Ideal) X = X := rfl

/-- The two programs' records of the same scatter and gather dimension numbers are the same records. -/
theorem scatter_deg : scatter_S50000_S800000x1_S800000_n_0_0_1 = Cert.ReferenceIdeal.scatter_S50000_S800000x1_S800000_n_0_0_1 := rfl
theorem scatter_128 : scatter_S50000x128_S800000x1_S800000x128_1_0_0_1 = Cert.ReferenceIdeal.scatter_S50000x128_S800000x1_S800000x128_1_0_0_1 := rfl
theorem scatter_64 : scatter_S50000x64_S800000x1_S800000x64_1_0_0_1 = Cert.ReferenceIdeal.scatter_S50000x64_S800000x1_S800000x64_1_0_0_1 := rfl
theorem gather_128 : gather_S50000x128_S800000x1_S800000x128_1_0_n_n_0_1_1128 = Cert.ReferenceIdeal.gather_S50000x128_S800000x1_S800000x128_1_0_n_n_0_1_1128 := rfl
theorem gather_64 : gather_S50000x64_S800000x1_S800000x64_1_0_n_n_0_1_164 = Cert.ReferenceIdeal.gather_S50000x64_S800000x1_S800000x64_1_0_n_n_0_1_164 := rfl

end Normal

open Cert.KernelIdeal Cert.KernelIdeal.Gen Cert.KernelIdeal.Stages in
set_option maxHeartbeats 4000000 in
/-- From memories that agree on the seven arguments, the reference's result is the contents the kernel's fold ends
    with at its result buffer. -/
theorem result_eq
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (c : Dev Cert.KernelIdeal.nD) :
    Cert.ReferenceIdeal.Value.res_main_v53 m' c = W11 m ρ c (Proc.devRef .tc main_v40) := by
  rw [secondOutput_as_op m ρ c]
  dsimp only [W10]
  rw [secondProduct_as_op m ρ c, firstOutput_as_op m ρ c]
  dsimp only [W7]
  rw [firstProduct_as_op m ρ c]
  dsimp only [W5, W4, W3, W2, W1, W0, hostOps0, hostOps0_1, hostOps0_2, hostOps0_3, hostOps0_4, hostOps1, hostOps3,
    secondOutputOp, secondProductOp, firstOutputOp, firstProductOp]
  after_results_simp
  simp only [Cert.LibHostCalls.ofBuf_toBuf]
  rw [toBuf_v7, ofBuf_v3, ofBuf_cst_2]
  try rw [toBuf_v10]
  try rw [ofBuf_v6]
  try rw [ofBuf_cst_4]
  rw [show W0 m ρ c (Proc.devRef .tc main_arg0) = m ((c.tc : Thread nD τ).loc main_arg0) from rfl,
    show W0 m ρ c (Proc.devRef .tc main_arg1) = m ((c.tc : Thread nD τ).loc main_arg1) from rfl,
    show W0 m ρ c (Proc.devRef .tc main_arg2) = m ((c.tc : Thread nD τ).loc main_arg2) from rfl,
    show W0 m ρ c (Proc.devRef .tc main_arg3) = m ((c.tc : Thread nD τ).loc main_arg3) from rfl,
    show W0 m ρ c (Proc.devRef .tc main_arg4) = m ((c.tc : Thread nD τ).loc main_arg4) from rfl,
    show W0 m ρ c (Proc.devRef .tc main_arg5) = m ((c.tc : Thread nD τ).loc main_arg5) from rfl,
    show W0 m ρ c (Proc.devRef .tc main_arg6) = m ((c.tc : Thread nD τ).loc main_arg6) from rfl]
  rw [scatter_deg, scatter_128, scatter_64, gather_128, gather_64]
  unfold Cert.ReferenceIdeal.Value.res_main_v53
  obtain ⟨a0, a1, a2, a3, a4, a5, a6⟩ := hagree c
  rw [a0, a1, a2, a3, a4, a5, a6]
  rw [Cert.ReferenceIdeal.Layers.output_second, Cert.ReferenceIdeal.Layers.product_second, Cert.ReferenceIdeal.Layers.output_first,
    Cert.ReferenceIdeal.Layers.product_first]
  rfl

end Cert.Bridge

end
-- ==== Proof.lean ====
/-
  A two-layer graph convolution: the tiled kernel against the plain array program, over the extended reals.

  Both programs compute, from node features x, an edge list (src, dst), weights W₁, W₂ and biases b₁, b₂:
  degree factors s = max(outdeg, 1)^(−1/2) and d = max(indeg, 1)^(−1/2); then per layer the row-scaled product
  (h · s) W, its sum over incoming edges, and the result scaled by d and shifted by the bias, with a maximum with zero
  after the first layer. The kernel computes the two products and the two output stages in blocks of 2000 rows; the
  edge-wise sums and the degree factors are the same host operations in both programs. At exact values a block-wise
  product is the whole product restricted to the block's rows, a change of float format is the identity, and the
  repeated column of factors and row of biases read the same entries as the reference's, so the two result arrays are
  equal entry by entry. No law that could fail at an infinity is used: the two sides are the same expression, so the
  finiteness of the inputs is never opened.

  The three programs run and keep their arguments (the kernel's two readings by their segment-by-segment runs, the
  reference by its run as a line of host operations); the idealization rewrote nothing; and the result arrays agree.
-/
import proofs.«172578_j13580686590542_1_alg».proof.Defs
import proofs.«172578_j13580686590542_1_alg».proof.Proof.Gen.Kernel
import proofs.«172578_j13580686590542_1_alg».proof.Proof.Gen.Kernel.Skeleton
import proofs.«172578_j13580686590542_1_alg».proof.Proof.Gen.Kernel.Launch
import proofs.«172578_j13580686590542_1_alg».proof.Proof.Gen.Kernel.Points
import proofs.«172578_j13580686590542_1_alg».proof.Proof.Gen.Kernel.Frame
import proofs.«172578_j13580686590542_1_alg».proof.Proof.Gen.KernelIdeal
import proofs.«172578_j13580686590542_1_alg».proof.Proof.Gen.KernelIdeal.Skeleton
import proofs.«172578_j13580686590542_1_alg».proof.Proof.Gen.KernelIdeal.Launch
import proofs.«172578_j13580686590542_1_alg».proof.Proof.Gen.KernelIdeal.Points
import proofs.«172578_j13580686590542_1_alg».proof.Proof.Gen.KernelIdeal.Frame
import proofs.«172578_j13580686590542_1_alg».proof.Proof.Gen.ReferenceIdeal
import proofs.«172578_j13580686590542_1_alg».proof.Proof.Gen.Pre_finite_inputs
import proofs.«172578_j13580686590542_1_alg».proof.Proof.Gen.ReferenceIdeal.Run
import proofs.«172578_j13580686590542_1_alg».proof.Proof.Gen.ReferenceIdeal.Read
import proofs.«172578_j13580686590542_1_alg».proof.Proof.KernelRun
import proofs.«172578_j13580686590542_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run as a line of host operations, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the same result array: the kernel's at the end of
    its fold of segments, the reference's at its composed term, and those are one array. -/
theorem algebraic : Cert.algebraic_KernelIdeal_ReferenceIdeal := by
  intro m ρ m' ρ' _ hagree
  refine ⟨fun c => Cert.KernelIdeal.Gen.W11 m ρ c (Proc.devRef .tc Cert.KernelIdeal.main_v40),
    Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  exact Cert.Bridge.result_eq m ρ m' hagree c

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
